-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x64 : Shape := ⟨2, ![1600000, 64]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : IVec S2x1600000 32) (main_arg2 : FVec F S1600000x64 .f32) (main_arg3 : FVec F S64x64 .f32) (main_arg4 : FVec F S64 .f32) (main_arg5 : FVec F S64x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x64 .f32 := Host.absf main_arg2
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x64 : Shape := ⟨2, ![100000, 64]⟩
abbrev S2x1600000 : Shape := ⟨2, ![2, 1600000]⟩
abbrev S1600000x64 : Shape := ⟨2, ![1600000, 64]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S8000x64 : Shape := ⟨2, ![8000, 64]⟩
abbrev S5000x64 : Shape := ⟨2, ![5000, 64]⟩
abbrev S1x64 : Shape := ⟨2, ![1, 64]⟩

abbrev nBuf : Space → Nat
  | .hbm => 26
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S100000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x64, .f32⟩
  | .local _ .vmem, ⟨5, _⟩ => ⟨S8000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S64, .f32⟩
  | .local _ .vmem, ⟨12, _⟩ => ⟨S64x64, .f32⟩
  | .local _ .vmem, ⟨13, _⟩ => ⟨S64, .f32⟩
  | .local _ .vmem, ⟨14, _⟩ => ⟨S5000x64, .f32⟩
  | .local _ .vmem, ⟨15, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1600000x64.size a
  hwx0_0 : ∀ i : grid0.Coords, EltTy.bits .f32 = 32 ∨ (Rect.block (s := S1600000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .f32 = 32 ∨ (Rect.block (s := S1600000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S1600000x64.size a
  hwx0_2 : ∀ i : grid0.Coords, EltTy.bits .f32 = 32 ∨ (Rect.block (s := S1600000x64) S8000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64.size a ≤ S64.size a
  hwx1_5 : ∀ i : grid1.Coords, EltTy.bits .f32 = 32 ∨ (Rect.block (s := S64) S64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v10) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S8000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x64 : Shape := ⟨2, ![1600000, 64]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x64 : Shape := ⟨2, ![1, 64]⟩

abbrev nBuf : Space → Nat
  | .hbm => 40
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S1600000x64, .f32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S100000x64, .f32⟩
  | .hbm, ⟨29, _⟩ => ⟨S100000x64, .f32⟩
  | .hbm, ⟨30, _⟩ => ⟨S1x64, .f32⟩
  | .hbm, ⟨31, _⟩ => ⟨S100000x64, .f32⟩
  | .hbm, ⟨32, _⟩ => ⟨S100000x64, .f32⟩
  | .hbm, ⟨33, _⟩ => ⟨S_, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_cst : Ref sig .tc := ⟨.hbm, 21, rfl⟩
abbrev main_call0_v0 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call1_cst : Ref sig .tc := ⟨.hbm, 33, rfl⟩
abbrev main_call1_v0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The arithmetic of one graph-convolution layer, stated once over the extended reals.

  An edge's message is the source node's feature row plus the edge's attribute row, rectified entry by entry.
  A node's output row is a two-layer perceptron of its own row plus the sum of the messages that arrive at it:
  hidden unit k of row r is max (∑ l, (x(r,l) + agg(r,l)) · W1(l,k) + b1(k), 0), and output entry (r,c) is
  ∑ k, hidden(r,k) · W2(k,c) + b2(c).  The perceptron acts on each row by itself, so the same formula describes a
  block of rows and the whole array: the row count is a parameter.
-/
import Idealize.ShloMosaic.PureOps.Ideal
import Idealize.ShloMosaic.Lib.ValueIdx

noncomputable section

namespace Cert.Layer

open Idealize.ShloMosaic Idealize.ShloMosaic.ValueIdx

/-- The word of all zero bits read as a float: the threshold of both rectifiers. -/
abbrev zeroW : Ideal .f32 := Ideal.ofBits .f32 0x00000000#32

/-- The messages, entry by entry: gathered feature plus attribute, rectified. -/
def msg {s : Shape} (g a : s.Idx → Ideal .f32) : s.Idx → Ideal .f32 :=
  fun i => max (g i + a i) zeroW

/-- Hidden unit `k` of row `r`: the rectified affine image of the row `x(r,·) + agg(r,·)`. -/
def hidden (n : Nat) (x agg : (⟨2, ![n, 64]⟩ : Shape).Idx → Ideal .f32) (W1 : (⟨2, ![64, 64]⟩ : Shape).Idx → Ideal .f32)
    (b1 : (⟨1, ![64]⟩ : Shape).Idx → Ideal .f32) (r : Fin n) (k : Fin 64) : Ideal .f32 :=
  max ((∑ l : Fin 64, (x (ix2 r l) + agg (ix2 r l)) * W1 (ix2 l k)) + b1 (ix1 k)) zeroW

/-- The layer's output on `n` rows: the second affine map of the hidden units. -/
def mlp (n : Nat) (x agg : (⟨2, ![n, 64]⟩ : Shape).Idx → Ideal .f32) (W1 : (⟨2, ![64, 64]⟩ : Shape).Idx → Ideal .f32)
    (b1 : (⟨1, ![64]⟩ : Shape).Idx → Ideal .f32) (W2 : (⟨2, ![64, 64]⟩ : Shape).Idx → Ideal .f32)
    (b2 : (⟨1, ![64]⟩ : Shape).Idx → Ideal .f32) : (⟨2, ![n, 64]⟩ : Shape).Idx → Ideal .f32 :=
  fun i => (∑ k : Fin 64, hidden n x agg W1 b1 (i 0) k * W2 (ix2 k (i 1))) + b2 (ix1 (i 1))

/-- The output at explicit coordinates. -/
theorem mlp_ix2 (n : Nat) (x agg : (⟨2, ![n, 64]⟩ : Shape).Idx → Ideal .f32) (W1 : (⟨2, ![64, 64]⟩ : Shape).Idx → Ideal .f32)
    (b1 : (⟨1, ![64]⟩ : Shape).Idx → Ideal .f32) (W2 : (⟨2, ![64, 64]⟩ : Shape).Idx → Ideal .f32)
    (b2 : (⟨1, ![64]⟩ : Shape).Idx → Ideal .f32) (r : Fin n) (c : Fin 64) :
    mlp n x agg W1 b1 W2 b2 (ix2 r c) = (∑ k : Fin 64, hidden n x agg W1 b1 r k * W2 (ix2 k c)) + b2 (ix1 c) := rfl

end Cert.Layer

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.Body.lean ====
/-
  The two kernel bodies, read at an index.

  The first body stores, for its block of 8000 edges, the rectified sum of the two blocks it loads: the messages of
  those edges.  The second stores, for its block of 5000 nodes, the two-layer perceptron of the sum of its first two
  blocks, with the weight matrices and bias vectors it loads whole.  A change of float format is the identity on
  extended reals, a matrix product into a zero accumulator at (p, c) is the sum over k of l(p,k) · r(k,c), and a
  bias vector recast to one row and repeated over the rows reads its entry at the column.
-/
import proofs.«105998_j4638564679686_2_alg».proof.Proof.Gen.KernelIdeal.Skeleton
import proofs.«105998_j4638564679686_2_alg».proof.Proof.Spec
import proofs.«105998_j4638564679686_2_alg».proof.Proof.LibPlainDot
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx Cert.Layer

/-- The first body's stored value is the messages of its two loaded blocks. -/
theorem msg_block (g a : Vec Ideal S8000x64 .f32) : k0_pay1 (F := Ideal) g a = msg g a := by
  unfold k0_pay1
  funext j
  show max (shapeCast S8000x64 g _ j + a j) zeroW = max (g j + a j) zeroW
  rw [shapeCast_self]

/-- A bias vector recast to one row and repeated over 5000 rows reads, at (p, c), its entry c. -/
theorem bias_rows (b : Vec Ideal S64 .f32) (h1 : S64.ShapeCasts S1x64) (h2 : S1x64.Broadcasts S5000x64) (p : Fin 5000) (c : Fin 64) :
    broadcastTo S5000x64 (shapeCast S1x64 b h1) h2 (ix2 p c) = b (ix1 c) :=
  (broadcastTo_1b_ab_apply (shapeCast S1x64 b h1) h2 p c).trans (shapeCast_a_1a_apply b h1 0 c)

/-- The first product plus bias, rectified: hidden unit `k` of row `p` of the block. -/
theorem hidden_block (x agg : Vec Ideal S5000x64 .f32) (w1 : Vec Ideal S64x64 .f32) (b1 : Vec Ideal S64 .f32)
    (h0 : S5000x64.ShapeCasts S5000x64) (h1 : S64.ShapeCasts S1x64) (h2 : S1x64.Broadcasts S5000x64) (hb : FTy.bf16.bits < FTy.f32.bits)
    (p : Fin 5000) (k : Fin 64) :
    maximumf (addf (matmul (F := Ideal) dot_S5000x64_S64x64_S5000x64_1_0_0_1_n_n none
          (truncf .bf16 (addf x (shapeCast S5000x64 agg h0)) hb) (truncf .bf16 w1 hb) (constant S5000x64 .f32 0x00000000#32))
        (broadcastTo S5000x64 (shapeCast S1x64 b1 h1) h2))
      (broadcast S5000x64 (Scalar.ofBits .f32 0x00000000#32)) (ix2 p k)
      = hidden 5000 x agg w1 b1 p k := by
  rw [shapeCast_self]
  show max (matmul (F := Ideal) (DotDims.plain 5000 64 64) none _ _ (constant ⟨2, ![5000, 64]⟩ .f32 0x00000000#32) (ix2 p k)
      + broadcastTo S5000x64 (shapeCast S1x64 b1 h1) h2 (ix2 p k)) zeroW = _
  rw [Cert.LibPlainDot.matmul_plain, bias_rows]
  rfl

/-- The second body's stored value is the perceptron of its loaded blocks. -/
theorem mlp_block (x agg : Vec Ideal S5000x64 .f32) (w1 : Vec Ideal S64x64 .f32) (b1 : Vec Ideal S64 .f32)
    (w2 : Vec Ideal S64x64 .f32) (b2 : Vec Ideal S64 .f32) :
    k1_pay1 (F := Ideal) x agg w1 b1 w2 b2 = mlp 5000 x agg w1 b1 w2 b2 := by
  funext j
  obtain ⟨p, c, rfl⟩ : ∃ (p : Fin 5000) (c : Fin 64), j = ix2 p c := ⟨j 0, j 1, eq_ix2 j⟩
  rw [mlp_ix2]
  unfold k1_pay1
  show matmul (F := Ideal) (DotDims.plain 5000 64 64) none _ _ (constant ⟨2, ![5000, 64]⟩ .f32 0x00000000#32) (ix2 p c)
      + broadcastTo S5000x64 (shapeCast S1x64 b2 _) _ (ix2 p c) = _
  refine congr (congrArg HAdd.hAdd ((Cert.LibPlainDot.matmul_plain 5000 64 64 none _ _ (ix2 p c)).trans ?_)) (bias_rows b2 _ _ p c)
  refine Finset.sum_congr rfl fun k _ => ?_
  exact congrArg (· * w2 (ix2 k c)) (hidden_block x agg w1 b1 _ _ _ _ p k)

end Cert.KernelIdeal.Body

end
-- ==== Proof.Edges.lean ====
/-
  The first region's output array: the messages of all 1,600,000 edges.

  The grid has 200 points; at point t each of the three windows is at block row t, so the point reads rows
  8000·t … 8000·t + 7999 of the gathered features and of the edge attributes and writes the same rows of the output.
  Every row lies in the block of point ⌊row / 8000⌋, so the blocks cover the array and it ends holding the messages,
  entry by entry.
-/
import proofs.«105998_j4638564679686_2_alg».proof.Proof.Gen.KernelIdeal.Frame
import proofs.«105998_j4638564679686_2_alg».proof.Proof.Body
import Idealize.ShloMosaic.Lib.Pipeline.Value

noncomputable section

namespace Cert.KernelIdeal.Edges

open Cert.KernelIdeal Cert.KernelIdeal.Gen Idealize.ShloMosaic Idealize.ShloMosaic.TcCoe Idealize.SL.Sem
open Idealize.ShloMosaic.ValueIdx Cert.Layer
open Idealize.ShloMosaic.Pipeline (Dat)

-- the buffers as a region finds them
variable (V : (c : Dev nD) → (b : Ref sig .tc) → Buf (Elt Ideal) ((c : Thread nD τ).loc b))

theorem origin2 : (![0, 0] : Fin 2 → Nat) = fun _ => 0 := funext fun a => by fin_cases a <;> rfl

/-- Over the 200 grid points: each of the three windows is at block row `t` and block column 0. -/
theorem block_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the messages of the two input arrays. -/
theorem flushed_msg (c : Dev nD) (t : Fin cfg0.N) :
    (dat0 V c).flushed 2 t = ((cfg0.win 2).blk t).view.read (Elt Ideal) (msg (V c main_v10) (V c main_arg2)) := by
  show (cfg0.win 2).cut (grid0.coords t) ((dat0 V c).after 2 t) = _
  rw [after0_2]
  unfold out0_2
  rw [View.canon_unit_zero origin2]
  simp only [View.ld_unit_zero (S := S8000x64) origin2]
  rw [Body.msg_block]
  obtain ⟨e0, e1, e2, e3, e4, e5⟩ := block_rows t
  funext j
  show max ((show S1600000x64.Idx → Ideal .f32 from V c main_v10) (((cfg0.win 0).blk t).view.emb j)
        + (show S1600000x64.Idx → Ideal .f32 from V c main_arg2) (((cfg0.win 1).blk t).view.emb j)) zeroW
    = max ((show S1600000x64.Idx → Ideal .f32 from V c main_v10) (((cfg0.win 2).blk t).view.emb j)
        + (show S1600000x64.Idx → Ideal .f32 from V c main_arg2) (((cfg0.win 2).blk t).view.emb j)) zeroW
  have h0 : ((cfg0.win 0).blk t).view.emb j = ((cfg0.win 2).blk t).view.emb j := by
    funext a; apply Fin.ext
    match a with
    | ⟨0, _⟩ => show win0_0.index t (0 : Fin 2) * 8000 + 1 * (j 0).val = win0_2.index t (0 : Fin 2) * 8000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb j = ((cfg0.win 2).blk t).view.emb j := by
    funext a; apply Fin.ext
    match a with
    | ⟨0, _⟩ => show win0_1.index t (0 : Fin 2) * 8000 + 1 * (j 0).val = win0_2.index t (0 : Fin 2) * 8000 + 1 * (j 0).val; omega
    | ⟨1, _⟩ => show win0_1.index t (1 : Fin 2) * 64 + 1 * (j 1).val = win0_2.index t (1 : Fin 2) * 64 + 1 * (j 1).val; omega
  rw [h0, h1]

/-- An index is in point `t`'s output block iff each coordinate is in the block's range on its axis. -/
theorem mem_block (t : Fin cfg0.N) (i : S1600000x64.Idx) :
    i ∈ ((cfg0.win 2).blk t).view.set ↔ ∀ a : Fin 2, win0_2.index t a * S8000x64.size a ≤ (i a).val ∧ (i a).val < win0_2.index t a * S8000x64.size a + S8000x64.size a := by
  show i ∈ ((View.whole main_v11).slice (win0_2.rect t)).set ↔ _
  rw [View.set_slice_whole, Rect.mem_set_unit]
  exact Iff.rfl

/-- Row r is in the block of point ⌊r / 8000⌋. -/
theorem covered (i : S1600000x64.Idx) : ∃ t : Fin cfg0.N, (cfg0.win 2).flush t = true ∧ i ∈ ((cfg0.win 2).blk t).view.set := by
  have hi0 : (i 0).val < 1600000 := (i 0).isLt
  have hi1 : (i 1).val < 64 := (i 1).isLt
  have hN : cfg0.N = 200 := N_0
  have ht : (i 0).val / 8000 < cfg0.N := by rw [hN]; omega
  obtain ⟨-, -, -, -, e4, e5⟩ := block_rows ⟨(i 0).val / 8000, ht⟩
  have e4' : win0_2.index ⟨(i 0).val / 8000, ht⟩ (0 : Fin 2) = (i 0).val / 8000 := e4
  refine ⟨⟨(i 0).val / 8000, ht⟩, flush0_2 _, ?_⟩
  rw [mem_block]
  intro a
  match a with
  | ⟨0, _⟩ =>
    show win0_2.index ⟨(i 0).val / 8000, ht⟩ (0 : Fin 2) * 8000 ≤ (i 0).val ∧ (i 0).val < win0_2.index ⟨(i 0).val / 8000, ht⟩ (0 : Fin 2) * 8000 + 8000
    omega
  | ⟨1, _⟩ =>
    show win0_2.index ⟨(i 0).val / 8000, ht⟩ (1 : Fin 2) * 64 ≤ (i 1).val ∧ (i 1).val < win0_2.index ⟨(i 0).val / 8000, ht⟩ (1 : Fin 2) * 64 + 64
    omega

/-- The output array after the region: the messages of the gathered features and the attributes it was entered with. -/
theorem final (c : Dev nD) : (dat0 V c).arrAt 2 cfg0.N = msg (V c main_v10) (V c main_arg2) :=
  (dat0 V c).arrAt_eq_of_cover 2 _ (fun t _ => flushed_msg V c t) (covered)

end Cert.KernelIdeal.Edges

end
-- ==== Proof.Nodes.lean ====
/-
  The second region's output array: the perceptron of all 100,000 node rows.

  The grid has 20 points; at point t the node features, the aggregated messages and the output are at block row t
  (rows 5000·t … 5000·t + 4999), and the two weight matrices and the two bias vectors are loaded whole.  The
  perceptron of a row depends on that row only, so the block a point writes is the same rows of the perceptron of
  the whole arrays; every row lies in the block of point ⌊row / 5000⌋.
-/
import proofs.«105998_j4638564679686_2_alg».proof.Proof.Gen.KernelIdeal.Frame
import proofs.«105998_j4638564679686_2_alg».proof.Proof.Body
import Idealize.ShloMosaic.Lib.Pipeline.Value

noncomputable section

namespace Cert.KernelIdeal.Nodes

open Cert.KernelIdeal Cert.KernelIdeal.Gen Idealize.ShloMosaic Idealize.ShloMosaic.TcCoe Idealize.SL.Sem
open Idealize.ShloMosaic.ValueIdx Cert.Layer
open Idealize.ShloMosaic.Pipeline (Dat)

-- the buffers as a region finds them
variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a; rfl

/-- Over the 20 grid points: the three row windows are at block row `t`, every other block index is 0. -/
theorem block_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- The perceptron of a block of rows is the same rows of the perceptron of the arrays the block was cut from. -/
theorem mlp_of_rows (A0 A1 : (⟨2, ![100000, 64]⟩ : Shape).Idx → Ideal .f32) (W1 W2 : (⟨2, ![64, 64]⟩ : Shape).Idx → Ideal .f32)
    (b1 b2 : (⟨1, ![64]⟩ : Shape).Idx → Ideal .f32) (x agg : (⟨2, ![5000, 64]⟩ : Shape).Idx → Ideal .f32)
    (p : Fin 5000) (r : Fin 100000)
    (hx : ∀ l : Fin 64, x (ix2 p l) = A0 (ix2 r l)) (hagg : ∀ l : Fin 64, agg (ix2 p l) = A1 (ix2 r l)) (c : Fin 64) :
    mlp 5000 x agg W1 b1 W2 b2 (ix2 p c) = mlp 100000 A0 A1 W1 b1 W2 b2 (ix2 r c) := by
  simp only [mlp_ix2, Cert.Layer.hidden, hx, hagg]

/-- A window that is the whole of its array reads the array. -/
theorem whole_W1 (c : Dev nD) (t : Fin cfg1.N) : iblk1 V c 2 t = V c main_arg3 := by
  obtain ⟨-, -, -, -, e4, e5, -⟩ := block_rows t
  funext y
  show (V c main_arg3 : S64x64.Idx → Ideal .f32) (((cfg1.win 2).blk t).view.emb y) = (V c main_arg3 : S64x64.Idx → Ideal .f32) y
  refine congrArg _ (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega
theorem whole_b1 (c : Dev nD) (t : Fin cfg1.N) : iblk1 V c 3 t = V c main_arg4 := by
  obtain ⟨-, -, -, -, -, -, e6, -⟩ := block_rows t
  funext y
  show (V c main_arg4 : S64.Idx → Ideal .f32) (((cfg1.win 3).blk t).view.emb y) = (V c main_arg4 : S64.Idx → Ideal .f32) y
  refine congrArg _ (funext fun a => Fin.ext ?_)
  match a with
  | ⟨0, _⟩ => show win1_3.index t (0 : Fin 1) * 64 + 1 * (y 0).val = (y 0).val; omega
theorem whole_W2 (c : Dev nD) (t : Fin cfg1.N) : iblk1 V c 4 t = V c main_arg5 := by
  obtain ⟨-, -, -, -, -, -, -, e7, e8, -⟩ := block_rows t
  funext y
  show (V c main_arg5 : S64x64.Idx → Ideal .f32) (((cfg1.win 4).blk t).view.emb y) = (V c main_arg5 : S64x64.Idx → Ideal .f32) y
  refine congrArg _ (funext fun a => Fin.ext ?_)
  match a with
  | ⟨0, _⟩ => show win1_4.index t (0 : Fin 2) * 64 + 1 * (y 0).val = (y 0).val; omega
  | ⟨1, _⟩ => show win1_4.index t (1 : Fin 2) * 64 + 1 * (y 1).val = (y 1).val; omega
theorem whole_b2 (c : Dev nD) (t : Fin cfg1.N) : iblk1 V c 5 t = V c main_arg6 := by
  obtain ⟨-, -, -, -, -, -, -, -, -, e9, -⟩ := block_rows t
  funext y
  show (V c main_arg6 : S64.Idx → Ideal .f32) (((cfg1.win 5).blk t).view.emb y) = (V c main_arg6 : S64.Idx → Ideal .f32) y
  refine congrArg _ (funext fun a => Fin.ext ?_)
  match a with
  | ⟨0, _⟩ => show win1_5.index t (0 : Fin 1) * 64 + 1 * (y 0).val = (y 0).val; omega

/-- What point `t` writes back is block `t` of the perceptron of the arrays the region finds. -/
theorem flushed_mlp (c : Dev nD) (t : Fin cfg1.N) :
    (dat1 V c).flushed 6 t = ((cfg1.win 6).blk t).view.read (Elt Ideal)
      (mlp 100000 (V c main_arg0) (V c main_v14) (V c main_arg3) (V c main_arg4) (V c main_arg5) (V c main_arg6)) := by
  show (cfg1.win 6).cut (grid1.coords t) ((dat1 V c).after 6 t) = _
  rw [after1_6]
  unfold out1_6
  rw [View.canon_unit_zero origin2]
  simp only [View.ld_unit_zero (S := S5000x64) origin2, View.ld_unit_zero (S := S64x64) origin2, View.ld_unit_zero (S := S64) origin1]
  rw [whole_W1, whole_b1, whole_W2, whole_b2, Body.mlp_block]
  obtain ⟨e0, e1, e2, e3, -, -, -, -, -, -, e10, e11⟩ := block_rows t
  have hN : cfg1.N = 20 := N_1
  have htN : t.val < 20 := hN ▸ t.isLt
  refine funext fun (j : S5000x64.Idx) => ?_
  obtain ⟨p, q, rfl⟩ : ∃ (p : Fin 5000) (q : Fin 64), j = ix2 p q := ⟨j 0, j 1, eq_ix2 j⟩
  have hp : p.val < 5000 := p.isLt
  have hq : q.val < 64 := q.isLt
  have hr : t.val * 5000 + p.val < 100000 := by omega
  show mlp 5000 (iblk1 V c 0 t) (iblk1 V c 1 t) (V c main_arg3) (V c main_arg4) (V c main_arg5) (V c main_arg6) (ix2 p q)
    = mlp 100000 (V c main_arg0) (V c main_v14) (V c main_arg3) (V c main_arg4) (V c main_arg5) (V c main_arg6) (((cfg1.win 6).blk t).view.emb (ix2 p q))
  have hout : ((cfg1.win 6).blk t).view.emb (ix2 p q) = ix2 (⟨t.val * 5000 + p.val, hr⟩ : Fin 100000) q := by
    funext a; apply Fin.ext
    match a with
    | ⟨0, _⟩ => show win1_6.index t (0 : Fin 2) * 5000 + 1 * p.val = t.val * 5000 + p.val; omega
    | ⟨1, _⟩ => show win1_6.index t (1 : Fin 2) * 64 + 1 * q.val = q.val; omega
  rw [hout]
  refine mlp_of_rows _ _ _ _ _ _ _ _ p ⟨t.val * 5000 + p.val, hr⟩ (fun l => ?_) (fun l => ?_) q
  · have hl : l.val < 64 := l.isLt
    show (V c main_arg0 : S100000x64.Idx → Ideal .f32) (((cfg1.win 0).blk t).view.emb (ix2 p l))
      = (V c main_arg0 : S100000x64.Idx → Ideal .f32) (ix2 (⟨t.val * 5000 + p.val, hr⟩ : Fin 100000) l)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * l.val = l.val; omega
  · have hl : l.val < 64 := l.isLt
    show (V c main_v14 : S100000x64.Idx → Ideal .f32) (((cfg1.win 1).blk t).view.emb (ix2 p l))
      = (V c main_v14 : S100000x64.Idx → Ideal .f32) (ix2 (⟨t.val * 5000 + p.val, hr⟩ : Fin 100000) l)
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 64 + 1 * l.val = l.val; omega

/-- An index is in point `t`'s output block iff each coordinate is in the block's range on its axis. -/
theorem mem_block (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v15).slice (win1_6.rect t)).set ↔ _
  rw [View.set_slice_whole, Rect.mem_set_unit]
  exact Iff.rfl

/-- Row r is in the block of point ⌊r / 5000⌋. -/
theorem covered (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  have ht : (i 0).val / 5000 < cfg1.N := by rw [hN]; omega
  obtain ⟨-, -, -, -, -, -, -, -, -, -, e10, e11⟩ := block_rows ⟨(i 0).val / 5000, ht⟩
  have e10' : win1_6.index ⟨(i 0).val / 5000, ht⟩ (0 : Fin 2) = (i 0).val / 5000 := e10
  refine ⟨⟨(i 0).val / 5000, ht⟩, flush1_6 _, ?_⟩
  rw [mem_block]
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    omega
  | ⟨1, _⟩ =>
    show win1_6.index ⟨(i 0).val / 5000, ht⟩ (1 : Fin 2) * 64 ≤ (i 1).val ∧ (i 1).val < win1_6.index ⟨(i 0).val / 5000, ht⟩ (1 : Fin 2) * 64 + 64
    omega

/-- The output array after the region: the perceptron of the arrays it was entered with. -/
theorem final (c : Dev nD) : (dat1 V c).arrAt 6 cfg1.N
    = mlp 100000 (V c main_arg0) (V c main_v14) (V c main_arg3) (V c main_arg4) (V c main_arg5) (V c main_arg6) :=
  (dat1 V c).arrAt_eq_of_cover 6 _ (fun t _ => flushed_mlp V c t) (covered)

end Cert.KernelIdeal.Nodes

end
-- ==== Proof.KernelRun.lean ====
/-
  The kernel program's run, with its result read back to the arguments.

  The program is four stretches: host operations that split the edge list into source and target columns and gather
  the source rows; the first region (the messages); host operations that sum the messages into their target rows,
  starting from zeros; the second region (the perceptron).  After the last stretch every buffer holds the value the
  stretches' composition gives it.  The result buffer is the second region's output array, which is the perceptron of
  the arrays that region is entered with: the node features and the parameters, still as launched, and the summed
  messages, which are the scatter-add of the first region's output array — the messages of the gathered rows and the
  edge attributes.
-/
import proofs.«105998_j4638564679686_2_alg».proof.Proof.Gen.KernelIdeal.Frame
import proofs.«105998_j4638564679686_2_alg».proof.Proof.Edges
import proofs.«105998_j4638564679686_2_alg».proof.Proof.Nodes
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Layer

local notation "𝕄" => MT nD τ sig Unit (Elt Ideal) ℕ (UR sig nD τ) ℕ

variable (m : (ℓ : Loc nD τ sig) → Buf (Elt Ideal) ℓ) (ρ : Dev nD → PrngReg)

/-! ## The host stretches' values, as functions of the arguments -/

/-- The source column: the first row of the edge list, a negative entry shifted up by the node count. -/
def sources (x1 : IVec S2x1600000 32) : IVec S1600000x1 32 :=
  broadcastInDim S1600000x1 ![0] bcast_S1600000_S1600000x1_0
    (select (cmpi .slt (shapeCast _ (extractStridedSlice S1x1600000 ![0, 0] x1 slices_S2x1600000_S1x1600000_0_0) shapeCasts_S1x1600000_S1600000)
        (broadcastInDim S1600000 ![] bcast_S_S1600000 (constantI S_ 32 0#32)))
      (addi (shapeCast _ (extractStridedSlice S1x1600000 ![0, 0] x1 slices_S2x1600000_S1x1600000_0_0) shapeCasts_S1x1600000_S1600000)
        (broadcastInDim S1600000 ![] bcast_S_S1600000 (constantI S_ 32 100000#32)))
      (shapeCast _ (extractStridedSlice S1x1600000 ![0, 0] x1 slices_S2x1600000_S1x1600000_0_0) shapeCasts_S1x1600000_S1600000))

/-- The gathered rows: each edge's source node's features. -/
def gathered (x0 : FVec Ideal S100000x64 .f32) (x1 : IVec S2x1600000 32) : FVec Ideal S1600000x64 .f32 :=
  Host.gather gather_S100000x64_S1600000x1_S1600000x64_1_0_n_n_0_1_164 x0 (sources x1)

/-- The target column: the second row of the edge list. -/
def targets (x1 : IVec S2x1600000 32) : IVec S1600000x1 32 :=
  broadcastInDim S1600000x1 ![0] bcast_S1600000_S1600000x1_0
    (shapeCast _ (extractStridedSlice S1x1600000 ![1, 0] x1 slices_S2x1600000_S1x1600000_1_0) shapeCasts_S1x1600000_S1600000)

/-- The messages summed into their target rows, from zeros. -/
def summed (x1 : IVec S2x1600000 32) (u : FVec Ideal S1600000x64 .f32) : FVec Ideal S100000x64 .f32 :=
  Host.scatterAdd scatter_S100000x64_S1600000x1_S1600000x64_1_0_0_1
    (broadcastInDim S100000x64 ![] bcast_S_S100000x64 (constant (F := Ideal) S_ .f32 0x00000000#32)) (targets x1) u

/-- The whole program's result as one function of the arguments. -/
def result (x0 : FVec Ideal S100000x64 .f32) (x1 : IVec S2x1600000 32) (x2 : FVec Ideal S1600000x64 .f32)
    (x3 : FVec Ideal S64x64 .f32) (x4 : FVec Ideal S64 .f32) (x5 : FVec Ideal S64x64 .f32) (x6 : FVec Ideal S64 .f32) :
    FVec Ideal S100000x64 .f32 :=
  mlp 100000 x0 (summed x1 (msg (gathered x0 x1) x2)) x3 x4 x5 x6

/-! ## The buffers at the two regions' entries -/

/-- The first region finds the gathered rows in its first window's array. -/
theorem entry_gathered (c : Dev nD) :
    V1 m ρ c main_v10 = gathered (m ((c : Thread nD τ).loc main_arg0)) (m ((c : Thread nD τ).loc main_arg1)) := by
  show StableHlo.after hostOps0 (W0 m ρ c) (Proc.devRef .tc main_v10) = _
  dsimp only [hostOps0]
  after_results
  rfl

/-- And the edge attributes, as launched, in its second. -/
theorem entry_attr (c : Dev nD) : V1 m ρ c main_arg2 = m ((c : Thread nD τ).loc main_arg2) := by
  show StableHlo.after hostOps0 (W0 m ρ c) (Proc.devRef .tc main_arg2) = _
  dsimp only [hostOps0]
  after_results

/-- The target column is computed before the first region and no region writes it. -/
theorem targets_kept (c : Dev nD) :
    W2 m ρ c (Proc.devRef .tc main_v3)
      = shapeCast _ (extractStridedSlice S1x1600000 ![1, 0] (m ((c : Thread nD τ).loc main_arg1)) slices_S2x1600000_S1x1600000_1_0) shapeCasts_S1x1600000_S1600000 := by
  rw [W2_of_ne m ρ c main_v3 (by decide)]
  show StableHlo.after hostOps0 (W0 m ρ c) (Proc.devRef .tc main_v3) = _
  dsimp only [hostOps0]
  after_results
  rfl

/-- The first region leaves the messages in its output array. -/
theorem messages (c : Dev nD) :
    W2 m ρ c (Proc.devRef .tc main_v11)
      = msg (gathered (m ((c : Thread nD τ).loc main_arg0)) (m ((c : Thread nD τ).loc main_arg1))) (m ((c : Thread nD τ).loc main_arg2)) :=
  ((W2_arr m ρ c 2).trans (Edges.final (V1 m ρ) c)).trans (by rw [entry_gathered, entry_attr])

/-- The second region finds the summed messages in its second window's array. -/
theorem entry_summed (c : Dev nD) :
    V3 m ρ c main_v14 = summed (m ((c : Thread nD τ).loc main_arg1))
      (msg (gathered (m ((c : Thread nD τ).loc main_arg0)) (m ((c : Thread nD τ).loc main_arg1))) (m ((c : Thread nD τ).loc main_arg2))) := by
  show StableHlo.after hostOps1 (W2 m ρ c) (Proc.devRef .tc main_v14) = _
  dsimp only [hostOps1]
  after_results
  rw [targets_kept, messages]
  rfl

/-- An input window's array is the same after the second region as at its entry. -/
theorem entry_in (c : Dev nD) (w : Fin cfg1.W) (hin : (cfg1.win w).isOut = false) :
    W4 m ρ c (Proc.devRef .tc (Pipeline.arrRef spec1 w)) = V3 m ρ c (Pipeline.arrRef spec1 w) :=
  (W4_arr m ρ c w).trans (((dat1 (V3 m ρ) c).arrAt_in w hin _).trans (A_eq1 (V3 m ρ) c w))

theorem entry_x (c : Dev nD) : V3 m ρ c main_arg0 = m ((c : Thread nD τ).loc main_arg0) :=
  (entry_in m ρ c 0 rfl).symm.trans (W4_main_arg0 m ρ c)
theorem entry_W1 (c : Dev nD) : V3 m ρ c main_arg3 = m ((c : Thread nD τ).loc main_arg3) :=
  (entry_in m ρ c 2 rfl).symm.trans (W4_main_arg3 m ρ c)
theorem entry_b1 (c : Dev nD) : V3 m ρ c main_arg4 = m ((c : Thread nD τ).loc main_arg4) :=
  (entry_in m ρ c 3 rfl).symm.trans (W4_main_arg4 m ρ c)
theorem entry_W2 (c : Dev nD) : V3 m ρ c main_arg5 = m ((c : Thread nD τ).loc main_arg5) :=
  (entry_in m ρ c 4 rfl).symm.trans (W4_main_arg5 m ρ c)
theorem entry_b2 (c : Dev nD) : V3 m ρ c main_arg6 = m ((c : Thread nD τ).loc main_arg6) :=
  (entry_in m ρ c 5 rfl).symm.trans (W4_main_arg6 m ρ c)

/-- The result buffer after the last stretch: the layer's result of the arguments as launched. -/
theorem result_buffer (c : Dev nD) :
    W4 m ρ c (Proc.devRef .tc main_v15)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) :=
  ((W4_arr m ρ c 6).trans (Nodes.final (V3 m ρ) c)).trans (by
    rw [entry_x, entry_summed, entry_W1, entry_b1, entry_W2, entry_b2]; rfl)

/-! ## The run -/

set_option backward.isDefEq.respectTransparency.types false in
/-- Every weakly fair execution of the program terminates, nothing faulting, with the result buffer at the layer's
    result of the arguments and the arguments as launched: the program's four stretches run one after the other,
    and the last thread state — every buffer at its value after the last stretch — read against the final state. -/
theorem run : θ_run defs (onTc (τ := τ) (main (F := Ideal))) ⟨m, fun _ => 0, ρ⟩ (fun r => ∀ c : Dev nD,
      r.2.mem ((c.tc : Thread nD τ).loc main_v15)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v15 (by decide))).trans (result_buffer m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Whole

end
-- ==== Proof.RefValue.lean ====
/-
  The reference program, read against the layer's arithmetic.

  Its messages are the rectified sum of the gathered rows and the edge attributes; its result is the perceptron of
  the node features and of the messages summed into their target rows.  The host's matrix product at (r, c) is the
  sum over k of l(r,k) · w(k,c), its two broadcasts of a bias vector read the entry at the column, and its
  rectifier is the maximum with the zero word.  The gather and the scatter-add stay whole-array terms: they are the
  same terms on the kernel's side.
-/
import proofs.«105998_j4638564679686_2_alg».proof.Proof.Gen.ReferenceIdeal.Read
import proofs.«105998_j4638564679686_2_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Layer

/-- The reference's messages. -/
theorem msg_eq (x0 : FVec Ideal S100000x64 .f32) (x1 : IVec S2x1600000 32) (x2 : FVec Ideal S1600000x64 .f32) :
    val_main_v12 (F := Ideal) x0 x1 x2 = msg (val_main_v10 (F := Ideal) x0 x1) x2 := by
  funext i
  rw [val_main_v12_apply, val_main_v11_apply, val_main_call0_v0_apply, val_main_call0_cst_apply]
  rfl

theorem lidx17 (r : Fin 100000) (c k : Fin 64) : lidx_main_v17 (ix2 r c) k = ix2 r k :=
  funext fun a => Fin.ext (by match a with | ⟨0, _⟩ => rfl | ⟨1, _⟩ => rfl)
theorem ridx17 (r : Fin 100000) (c k : Fin 64) : ridx_main_v17 (ix2 r c) k = ix2 k c :=
  funext fun a => Fin.ext (by match a with | ⟨0, _⟩ => rfl | ⟨1, _⟩ => rfl)
theorem lidx22 (r : Fin 100000) (c k : Fin 64) : lidx_main_v22 (ix2 r c) k = ix2 r k :=
  funext fun a => Fin.ext (by match a with | ⟨0, _⟩ => rfl | ⟨1, _⟩ => rfl)
theorem ridx22 (r : Fin 100000) (c k : Fin 64) : ridx_main_v22 (ix2 r c) k = ix2 k c :=
  funext fun a => Fin.ext (by match a with | ⟨0, _⟩ => rfl | ⟨1, _⟩ => rfl)
theorem bidx1 (r : Fin 100000) (c : Fin 64) : idx_main_v18 (idx_main_v19 (ix2 r c)) = ix1 c :=
  funext fun a => Fin.ext (by match a with | ⟨0, _⟩ => rfl)
theorem bidx2 (r : Fin 100000) (c : Fin 64) : idx_main_v23 (idx_main_v24 (ix2 r c)) = ix1 c :=
  funext fun a => Fin.ext (by match a with | ⟨0, _⟩ => rfl)

/-- The reference's hidden units. -/
theorem hidden_eq (x0 : FVec Ideal S100000x64 .f32) (x1 : IVec S2x1600000 32) (x2 : FVec Ideal S1600000x64 .f32)
    (x3 : FVec Ideal S64x64 .f32) (x4 : FVec Ideal S64 .f32) (r : Fin 100000) (k : Fin 64) :
    val_main_v21 (F := Ideal) x0 x1 x2 x3 x4 (ix2 r k)
      = Cert.Layer.hidden 100000 x0 (val_main_v15 (F := Ideal) x0 x1 x2) x3 x4 r k := by
  rw [val_main_v21_apply, val_main_v20_apply, val_main_v17_apply, val_main_v19_apply, val_main_v18_apply,
    val_main_call1_v0_apply, val_main_call1_cst_apply]
  simp only [lidx17, ridx17, bidx1, val_main_v16_apply]
  rfl

/-- The reference's result. -/
theorem out_eq (x0 : FVec Ideal S100000x64 .f32) (x1 : IVec S2x1600000 32) (x2 : FVec Ideal S1600000x64 .f32)
    (x3 : FVec Ideal S64x64 .f32) (x4 : FVec Ideal S64 .f32) (x5 : FVec Ideal S64x64 .f32) (x6 : FVec Ideal S64 .f32) :
    val_main_v25 (F := Ideal) x0 x1 x2 x3 x4 x5 x6
      = mlp 100000 x0 (val_main_v15 (F := Ideal) x0 x1 x2) x3 x4 x5 x6 := by
  funext i
  obtain ⟨r, c, rfl⟩ : ∃ (r : Fin 100000) (c : Fin 64), i = ix2 r c := ⟨i 0, i 1, eq_ix2 i⟩
  rw [mlp_ix2, val_main_v25_apply, val_main_v22_apply, val_main_v24_apply, val_main_v23_apply]
  simp only [lidx22, ridx22, bidx2, hidden_eq]
  rfl

end Cert.ReferenceIdeal.RefValue

end
-- ==== Proof.Bridge.lean ====
/-
  The two programs compute one function.

  Both split the edge list, gather and scatter-add with the same host operations, so those stages are the same terms;
  between them both rectify the sum of gathered rows and attributes, and both end with the perceptron of the node
  features and the summed messages.
-/
import proofs.«105998_j4638564679686_2_alg».proof.Proof.KernelRun
import proofs.«105998_j4638564679686_2_alg».proof.Proof.RefValue

noncomputable section

namespace Cert.Bridge

open Idealize.ShloMosaic Cert.Layer
open Cert.KernelIdeal (S100000x64 S2x1600000 S1600000x64 S64x64 S64)

/-- The summed messages are the same array in both programs. -/
theorem summed_eq (x0 : FVec Ideal S100000x64 .f32) (x1 : IVec S2x1600000 32) (x2 : FVec Ideal S1600000x64 .f32) :
    Cert.ReferenceIdeal.Read.val_main_v15 (F := Ideal) x0 x1 x2
      = Cert.KernelIdeal.Whole.summed x1 (msg (Cert.KernelIdeal.Whole.gathered x0 x1) x2) := by
  unfold Cert.ReferenceIdeal.Read.val_main_v15
  rw [Cert.ReferenceIdeal.RefValue.msg_eq]
  rfl

/-- The reference's result is the kernel program's. -/
theorem result_eq (x0 : FVec Ideal S100000x64 .f32) (x1 : IVec S2x1600000 32) (x2 : FVec Ideal S1600000x64 .f32)
    (x3 : FVec Ideal S64x64 .f32) (x4 : FVec Ideal S64 .f32) (x5 : FVec Ideal S64x64 .f32) (x6 : FVec Ideal S64 .f32) :
    Cert.ReferenceIdeal.Read.val_main_v25 (F := Ideal) x0 x1 x2 x3 x4 x5 x6
      = Cert.KernelIdeal.Whole.result x0 x1 x2 x3 x4 x5 x6 := by
  rw [Cert.ReferenceIdeal.RefValue.out_eq, summed_eq]
  rfl

end Cert.Bridge

end
-- ==== Proof.lean ====
/-
  The certificate of one graph-convolution layer: a program of two kernels against its reference.

  Both programs gather each edge's source row of the node features, add the edge's attribute row and rectify (the
  messages), sum the messages into their target rows, add the node's own row, and apply a two-layer perceptron
  (64 → 64, rectified, 64 → 64).  The kernel program computes the messages in blocks of 8000 edges and the perceptron
  in blocks of 5000 nodes, with its matrix products taken through a narrower float format; the gather and the
  scatter-add are the same host operations in both.  Over the extended reals a change of float format is the
  identity, a product into a zero accumulator is the plain sum of products, and a perceptron acts row by row, so the
  blocked computation is the whole-array one and the two results are equal entry by entry.  The equality uses only
  that the two sides are the same expression: no law that could fail at an infinity, so the precondition is not opened.

  The three frames are the generated frame runs (the reference's is its generated run with the result dropped); the
  idealization rewrote nothing, so its statement is `True`.
-/
import proofs.«105998_j4638564679686_2_alg».proof.Defs
import proofs.«105998_j4638564679686_2_alg».proof.Proof.Gen.Kernel
import proofs.«105998_j4638564679686_2_alg».proof.Proof.Gen.Kernel.Skeleton
import proofs.«105998_j4638564679686_2_alg».proof.Proof.Gen.Kernel.Launch
import proofs.«105998_j4638564679686_2_alg».proof.Proof.Gen.Kernel.Points
import proofs.«105998_j4638564679686_2_alg».proof.Proof.Gen.Kernel.Frame
import proofs.«105998_j4638564679686_2_alg».proof.Proof.Gen.KernelIdeal
import proofs.«105998_j4638564679686_2_alg».proof.Proof.Gen.KernelIdeal.Skeleton
import proofs.«105998_j4638564679686_2_alg».proof.Proof.Gen.KernelIdeal.Launch
import proofs.«105998_j4638564679686_2_alg».proof.Proof.Gen.KernelIdeal.Points
import proofs.«105998_j4638564679686_2_alg».proof.Proof.Gen.KernelIdeal.Frame
import proofs.«105998_j4638564679686_2_alg».proof.Proof.Gen.ReferenceIdeal
import proofs.«105998_j4638564679686_2_alg».proof.Proof.Gen.Pre_finite_inputs
import proofs.«105998_j4638564679686_2_alg».proof.Proof.Gen.ReferenceIdeal.Run
import proofs.«105998_j4638564679686_2_alg».proof.Proof.Gen.ReferenceIdeal.Read
import proofs.«105998_j4638564679686_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the layer's result of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6, Cert.ReferenceIdeal.Read.val_main_v25_eq]
  exact Cert.Bridge.result_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
